-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S2048x784 .f32
  ∧ IdealRules.sign_bit.Statement Cert.KernelIdeal.S2048x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S128x784 : Shape := ⟨2, ![128, 784]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S128x784 : S_.BroadcastsInDim S128x784 (![] : Fin 0 → Fin S128x784.rank)
  reducesTo_S128x784_S_d0_1 : S128x784.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x128 1) : IVec S_ 1 :=
  let main_c_5 : IVec S_ 1 := constantI S_ 1 1#1
  let main_v17 : IVec S_ 1 := (fun x v => Host.reduce IntOp.andi x v reducesTo_S10x128_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S65536x784 .f32) (main_arg1 : FVec F S128x784 .f32) (main_arg2 : FVec F S128 .f32) (main_arg3 : FVec F S10x128 .f32) (main_arg4 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S128x784 .f32 := Host.absf main_arg1
  let main_cst_0 : FVec F S_ .f32 := constant S_ .f32 0x7F800000#32
  let main_v5 : FVec F S128x784 .f32 := broadcastInDim S128x784 ![] bcast_S_S128x784 main_cst_0
  let main_v6 : IVec S128x784 1 := cmpf .olt main_v4 main_v5
  let main_c_1 : IVec S_ 1 := constantI S_ 1 1#1
  let main_v7 : IVec S_ 1 := (fun x v => Host.reduce IntOp.andi x v reducesTo_S128x784_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S10x128 .f32 := Host.absf main_arg3
  let main_cst_4 : FVec F S_ .f32 := constant S_ .f32 0x7F800000#32
  let main_v15 : FVec F S10x128 .f32 := broadcastInDim S10x128 ![] bcast_S_S10x128 main_cst_4
  let main_v16 : IVec S10x128 1 := cmpf .olt main_v14 main_v15
  fn_part1 (F := F) main_arg4 main_v13 main_v16
-- ==== Kernel.lean ====
abbrev S65536x784 : Shape := ⟨2, ![65536, 784]⟩
abbrev S128x784 : Shape := ⟨2, ![128, 784]⟩
abbrev S128 : Shape := ⟨1, ![128]⟩
abbrev S10x128 : Shape := ⟨2, ![10, 128]⟩
abbrev S10 : Shape := ⟨1, ![10]⟩
abbrev S784x128 : Shape := ⟨2, ![784, 128]⟩
abbrev S128x10 : Shape := ⟨2, ![128, 10]⟩
abbrev S1x128 : Shape := ⟨2, ![1, 128]⟩
abbrev S1x10 : Shape := ⟨2, ![1, 10]⟩
abbrev S65536x10 : Shape := ⟨2, ![65536, 10]⟩
abbrev S2048x784 : Shape := ⟨2, ![2048, 784]⟩
abbrev S2048x10 : Shape := ⟨2, ![2048, 10]⟩
abbrev S2048x128 : Shape := ⟨2, ![2048, 128]⟩

abbrev nBuf : Space → Nat
  | .hbm => 14
  | .vmem => 8
  | .smem => 0
  | _ => 0

abbrev bufTy : (tb : Table) → Fin (tcTables nBuf tb) → BufTy
  | .hbm, ⟨0, _⟩ => ⟨S65536x784, .f32⟩
  | .hbm, ⟨1, _⟩ => ⟨S128x784, .f32⟩
  | .hbm, ⟨2, _⟩ => ⟨S128, .f32⟩
  | .hbm, ⟨3, _⟩ => ⟨S10x128, .f32⟩
  | .hbm, ⟨4, _⟩ => ⟨S10, .f32⟩
  | .hbm, ⟨5, _⟩ => ⟨S128x784, .f32⟩
  | .hbm, ⟨6, _⟩ => ⟨S128x784, .bf16⟩
  | .hbm, ⟨7, _⟩ => ⟨S784x128, .bf16⟩
  | .hbm, ⟨8, _⟩ => ⟨S10x128, .f32⟩
  | .hbm, ⟨9, _⟩ => ⟨S10x128, .bf16⟩
  | .hbm, ⟨10, _⟩ => ⟨S128x10, .bf16⟩
  | .hbm, ⟨11, _⟩ => ⟨S1x128, .f32⟩
  | .hbm, ⟨12, _⟩ => ⟨S1x10, .f32⟩
  | .hbm, ⟨13, _⟩ => ⟨S65536x10, .f32⟩
  | .local _ .vmem, ⟨0, _⟩ => ⟨S2048x784, .f32⟩
  | .local _ .vmem, ⟨1, _⟩ => ⟨S2048x784, .f32⟩
  | .local _ .vmem, ⟨2, _⟩ => ⟨S784x128, .bf16⟩
  | .local _ .vmem, ⟨3, _⟩ => ⟨S1x128, .f32⟩
  | .local _ .vmem, ⟨4, _⟩ => ⟨S128x10, .bf16⟩
  | .local _ .vmem, ⟨5, _⟩ => ⟨S1x10, .f32⟩
  | .local _ .vmem, ⟨6, _⟩ => ⟨S2048x10, .f32⟩
  | .local _ .vmem, ⟨7, _⟩ => ⟨S2048x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  transposes_S128x784_S784x128_1_0 : S128x784.Transposes [1, 0] S784x128
  transposes_S10x128_S128x10_1_0 : S10x128.Transposes [1, 0] S128x10
  shapeCasts_S128_S1x128 : S128.ShapeCasts S1x128
  shapeCasts_S10_S1x10 : S10.ShapeCasts S1x10
  inb_S2048x784_S2048x784_0_0 : ∀ a, (![0, 0] : Fin 2 → Nat) a + S2048x784.size a ≤ S2048x784.size a
  h_S2048x784 : 0 < S2048x784.numel
  inb_S784x128_S784x128_0_0 : ∀ a, (![0, 0] : Fin 2 → Nat) a + S784x128.size a ≤ S784x128.size a
  h_S784x128 : 0 < S784x128.numel
  shapeCasts_S784x128_S784x128 : S784x128.ShapeCasts S784x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  dot_S2048x784_S784x128_S2048x128_1_0_0_1_n_n_wf : DotDims.WF S2048x784 S784x128 S2048x128 [1] [0] [0] [1] [] []
  dot_S2048x128_S128x10_S2048x10_1_0_0_1_n_n_wf : DotDims.WF S2048x128 S128x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x128.size a ≤ S784x128.size a
  hwx0_1 : ∀ i : grid0.Coords, EltTy.bits .bf16 = 32 ∨ (Rect.block (s := S784x128) S784x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x10.size a ≤ S128x10.size a
  hwx0_3 : ∀ i : grid0.Coords, EltTy.bits .bf16 = 32 ∨ (Rect.block (s := S128x10) S128x10.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x10.size a ≤ S65536x10.size a
  hwx0_5 : ∀ i : grid0.Coords, EltTy.bits .f32 = 32 ∨ (Rect.block (s := S65536x10) S2048x10.size (cc0_transform_5 i) (hinb0_5 i)).WholeWords (EltTy.packing .f32)

variable [Facts₀]

def dot_S2048x784_S784x128_S2048x128_1_0_0_1_n_n : DotDims S2048x784 S784x128 S2048x128 where
  lhsContracting := [1]
  rhsContracting := [0]
  lhsNonContracting := [0]
  rhsNonContracting := [1]
  lhsBatch := []
  rhsBatch := []
  wf := dot_S2048x784_S784x128_S2048x128_1_0_0_1_n_n_wf
def dot_S2048x128_S128x10_S2048x10_1_0_0_1_n_n : DotDims S2048x128 S128x10 S2048x10 where
  lhsContracting := [1]
  rhsContracting := [0]
  lhsNonContracting := [0]
  rhsNonContracting := [1]
  lhsBatch := []
  rhsBatch := []
  wf := dot_S2048x128_S128x10_S2048x10_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S784x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x784 : Shape := ⟨2, ![65536, 784]⟩
abbrev S128x784 : Shape := ⟨2, ![128, 784]⟩
abbrev S128 : Shape := ⟨1, ![128]⟩
abbrev S10x128 : Shape := ⟨2, ![10, 128]⟩
abbrev S10 : Shape := ⟨1, ![10]⟩
abbrev S65536x128 : Shape := ⟨2, ![65536, 128]⟩
abbrev S1x128 : Shape := ⟨2, ![1, 128]⟩
abbrev S65536x10 : Shape := ⟨2, ![65536, 10]⟩
abbrev S1x10 : Shape := ⟨2, ![1, 10]⟩

abbrev nBuf : Space → Nat
  | .hbm => 17
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S128x784, .f32⟩
  | .hbm, ⟨2, _⟩ => ⟨S128, .f32⟩
  | .hbm, ⟨3, _⟩ => ⟨S10x128, .f32⟩
  | .hbm, ⟨4, _⟩ => ⟨S10, .f32⟩
  | .hbm, ⟨5, _⟩ => ⟨S65536x784, .f32⟩
  | .hbm, ⟨6, _⟩ => ⟨S128x784, .f32⟩
  | .hbm, ⟨7, _⟩ => ⟨S65536x128, .f32⟩
  | .hbm, ⟨8, _⟩ => ⟨S1x128, .f32⟩
  | .hbm, ⟨9, _⟩ => ⟨S65536x128, .f32⟩
  | .hbm, ⟨10, _⟩ => ⟨S65536x128, .f32⟩
  | .hbm, ⟨11, _⟩ => ⟨S65536x128, .f32⟩
  | .hbm, ⟨12, _⟩ => ⟨S10x128, .f32⟩
  | .hbm, ⟨13, _⟩ => ⟨S65536x10, .f32⟩
  | .hbm, ⟨14, _⟩ => ⟨S1x10, .f32⟩
  | .hbm, ⟨15, _⟩ => ⟨S65536x10, .f32⟩
  | .hbm, ⟨16, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  dot_S65536x784_S128x784_S65536x128_1_1_0_0_n_n_wf : DotDims.WF S65536x784 S128x784 S65536x128 [1] [1] [0] [0] [] []
  dot_S65536x128_S10x128_S65536x10_1_1_0_0_n_n_wf : DotDims.WF S65536x128 S10x128 S65536x10 [1] [1] [0] [0] [] []

variable [Facts₀]

def dot_S65536x784_S128x784_S65536x128_1_1_0_0_n_n : DotDims S65536x784 S128x784 S65536x128 where
  lhsContracting := [1]
  rhsContracting := [1]
  lhsNonContracting := [0]
  rhsNonContracting := [0]
  lhsBatch := []
  rhsBatch := []
  wf := dot_S65536x784_S128x784_S65536x128_1_1_0_0_n_n_wf
def dot_S65536x128_S10x128_S65536x10_1_1_0_0_n_n : DotDims S65536x128 S10x128 S65536x10 where
  lhsContracting := [1]
  rhsContracting := [1]
  lhsNonContracting := [0]
  rhsNonContracting := [0]
  lhsBatch := []
  rhsBatch := []
  wf := dot_S65536x128_S10x128_S65536x10_1_1_0_0_n_n_wf

class Facts : Prop extends Facts₀ where

variable [Facts]
-- ==== Proof.SignNet.lean ====
/-
  A TWO-LAYER NETWORK WITH SIGN ACTIVATIONS, ENTRY BY ENTRY.

  The input rows, both weight matrices and the hidden layer are all passed through the sign function (-1 below zero,
  0 at zero, 1 above it), so every product in either layer is a product of two numbers among -1, 0, 1.
  For input rows `x`, first-layer weights `W1` (one row per hidden unit) and bias `b1`, hidden unit `j` of row `r` is

      h r j = (∑ k, sign (x r k) · sign (W1 j k)) + b1 j,

  and for second-layer weights `W2` (one row per output) and bias `b2`, output `q` of row `r` is

      out r q = (∑ j, sign (h r j) · sign (W2 q j)) + b2 q.

  A device that works on a block of rows, with both weight matrices already passed through the sign function and
  transposed and both biases held as one-row matrices, computes the same number from its block: `blockLogitAt_eq`.
  No law of arithmetic beyond rewriting equal terms is used, so nothing here asks the inputs to be finite.
-/
import Idealize.ShloMosaic.PureOps.Ideal.Laws
import Idealize.ShloMosaic.Lib.ValueIdx

noncomputable section

open scoped BigOperators

namespace Cert.SignNet

open Idealize.ShloMosaic Idealize.ShloMosaic.ValueIdx

variable {M K H C : Nat}

/-- Hidden unit `j` of row `r` before its sign is taken: the signed input row against the signed weight row, plus the bias. -/
def hiddenAt (x : (⟨2, ![M, K]⟩ : Shape).Idx → EReal) (W1 : (⟨2, ![H, K]⟩ : Shape).Idx → EReal)
    (b1 : (⟨1, ![H]⟩ : Shape).Idx → EReal) (r : Fin M) (j : Fin H) : EReal :=
  (∑ k : Fin K, Ideal.sign (x (ix2 r k)) * Ideal.sign (W1 (ix2 j k))) + b1 (ix1 j)

/-- Output `q` of row `r`: the signed hidden row against the signed second-layer weight row, plus the bias. -/
def logitAt (x : (⟨2, ![M, K]⟩ : Shape).Idx → EReal) (W1 : (⟨2, ![H, K]⟩ : Shape).Idx → EReal)
    (b1 : (⟨1, ![H]⟩ : Shape).Idx → EReal) (W2 : (⟨2, ![C, H]⟩ : Shape).Idx → EReal)
    (b2 : (⟨1, ![C]⟩ : Shape).Idx → EReal) (r : Fin M) (q : Fin C) : EReal :=
  (∑ j : Fin H, Ideal.sign (hiddenAt x W1 b1 r j) * Ideal.sign (W2 (ix2 q j))) + b2 (ix1 q)

/-- The same output from a block of rows `x`, weight matrices `w1` (`K × H`) and `w2` (`H × C`) that are used as they
    are, and biases held as one-row matrices. -/
def blockLogitAt (x : (⟨2, ![M, K]⟩ : Shape).Idx → EReal) (w1 : (⟨2, ![K, H]⟩ : Shape).Idx → EReal)
    (b1 : (⟨2, ![1, H]⟩ : Shape).Idx → EReal) (w2 : (⟨2, ![H, C]⟩ : Shape).Idx → EReal)
    (b2 : (⟨2, ![1, C]⟩ : Shape).Idx → EReal) (p : Fin M) (q : Fin C) : EReal :=
  (∑ j : Fin H, Ideal.sign ((∑ k : Fin K, Ideal.sign (x (ix2 p k)) * w1 (ix2 k j)) + b1 (ix2 (0 : Fin 1) j)) * w2 (ix2 j q))
    + b2 (ix2 (0 : Fin 1) q)

/-- When row `p` of the block is row `r` of the whole input, the block's weight matrices are the transposed signs of the
    network's and its one-row biases hold the network's biases, the block's output at `(p, q)` is the network's at `(r, q)`. -/
theorem blockLogitAt_eq {M' : Nat} (X : (⟨2, ![M', K]⟩ : Shape).Idx → EReal) (W1 : (⟨2, ![H, K]⟩ : Shape).Idx → EReal)
    (B1 : (⟨1, ![H]⟩ : Shape).Idx → EReal) (W2 : (⟨2, ![C, H]⟩ : Shape).Idx → EReal) (B2 : (⟨1, ![C]⟩ : Shape).Idx → EReal)
    (x : (⟨2, ![M, K]⟩ : Shape).Idx → EReal) (w1 : (⟨2, ![K, H]⟩ : Shape).Idx → EReal)
    (b1 : (⟨2, ![1, H]⟩ : Shape).Idx → EReal) (w2 : (⟨2, ![H, C]⟩ : Shape).Idx → EReal)
    (b2 : (⟨2, ![1, C]⟩ : Shape).Idx → EReal) (p : Fin M) (r : Fin M') (q : Fin C)
    (hx : ∀ k : Fin K, x (ix2 p k) = X (ix2 r k))
    (hw1 : ∀ (k : Fin K) (j : Fin H), w1 (ix2 k j) = Ideal.sign (W1 (ix2 j k)))
    (hb1 : ∀ j : Fin H, b1 (ix2 (0 : Fin 1) j) = B1 (ix1 j))
    (hw2 : ∀ (j : Fin H) (q : Fin C), w2 (ix2 j q) = Ideal.sign (W2 (ix2 q j)))
    (hb2 : ∀ q : Fin C, b2 (ix2 (0 : Fin 1) q) = B2 (ix1 q)) :
    blockLogitAt x w1 b1 w2 b2 p q = logitAt X W1 B1 W2 B2 r q := by
  unfold blockLogitAt logitAt hiddenAt
  simp only [hx, hw1, hb1, hw2, hb2]

end Cert.SignNet

end
-- ==== Proof.Reference.lean ====
/-
  THE REFERENCE COMPUTES THE NETWORK.

  The reference program signs the input and the first-layer weights, contracts the two along the input features,
  adds the bias broadcast over the rows, signs the result, contracts it with the signed second-layer weights along the
  hidden units and adds the second bias broadcast over the rows. Read at row `r` and output `q`, stage by stage,
  that is the network's output `logitAt` at `(r, q)`: each contraction is the sum over its one contracted axis, and
  each broadcast reads the bias at the column.
-/
import proofs.«115025_j61933428415074_1_alg».proof.Proof.Gen.ReferenceIdeal.Read
import proofs.«115025_j61933428415074_1_alg».proof.Proof.SignNet

noncomputable section

open scoped BigOperators

namespace Cert.ReferenceIdeal.RefValue

open Cert.ReferenceIdeal Cert.ReferenceIdeal.Read Idealize.ShloMosaic Idealize.ShloMosaic.ValueIdx Cert.SignNet

/-- The reference's last stage is the network's output, entry by entry. -/
theorem reference_eq (x0 : (⟨S65536x784, .f32⟩ : BufTy).Contents (Elt Ideal)) (x1 : (⟨S128x784, .f32⟩ : BufTy).Contents (Elt Ideal))
    (x2 : (⟨S128, .f32⟩ : BufTy).Contents (Elt Ideal)) (x3 : (⟨S10x128, .f32⟩ : BufTy).Contents (Elt Ideal))
    (x4 : (⟨S10, .f32⟩ : BufTy).Contents (Elt Ideal)) :
    val_main_v11 (F := Ideal) x0 x1 x2 x3 x4 = fun i => logitAt x0 x1 x2 x3 x4 (i 0) (i 1) := by
  funext i
  obtain ⟨r, q, rfl⟩ : ∃ (r : Fin 65536) (q : Fin 10), i = ix2 r q := ⟨i 0, i 1, eq_ix2 i⟩
  -- the operand indices of the second contraction and of the second bias
  have e1 : ∀ k : Fin 128, lidx_main_v8 (ix2 r q) k = ix2 r k := fun k =>
    funext fun a => Fin.ext (by match a with | ⟨0, _⟩ => rfl | ⟨1, _⟩ => rfl)
  have e2 : ∀ k : Fin 128, ridx_main_v8 (ix2 r q) k = ix2 q k := fun k =>
    funext fun a => Fin.ext (by match a with | ⟨0, _⟩ => rfl | ⟨1, _⟩ => rfl)
  have e3 : idx_main_v9 (idx_main_v10 (ix2 r q)) = ix1 q :=
    funext fun a => Fin.ext (by match a with | ⟨0, _⟩ => rfl)
  -- the operand indices of the first contraction and of the first bias, at row `r` and hidden unit `k`
  have e4 : ∀ (k : Fin 128) (k' : Fin 784), lidx_main_v2 (ix2 r k) k' = ix2 r k' := fun k k' =>
    funext fun a => Fin.ext (by match a with | ⟨0, _⟩ => rfl | ⟨1, _⟩ => rfl)
  have e5 : ∀ (k : Fin 128) (k' : Fin 784), ridx_main_v2 (ix2 r k) k' = ix2 k k' := fun k k' =>
    funext fun a => Fin.ext (by match a with | ⟨0, _⟩ => rfl | ⟨1, _⟩ => rfl)
  have e6 : ∀ k : Fin 128, idx_main_v3 (idx_main_v4 (ix2 r k)) = ix1 k := fun k =>
    funext fun a => Fin.ext (by match a with | ⟨0, _⟩ => rfl)
  rw [val_main_v11_apply, val_main_v8_apply, val_main_v10_apply, val_main_v9_apply]
  simp only [e1, e2, e3, val_main_v6_apply, val_main_v5_apply, val_main_v2_apply, val_main_v4_apply, val_main_v3_apply,
    e4, e5, e6, val_main_v0_apply, val_main_v1_apply, val_main_v7_apply, Ideal.hostUnary_sign_def, Ideal.addf_def]
  rfl

end Cert.ReferenceIdeal.RefValue

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.Block.lean ====
/-
  WHAT THE DEVICE BODY COMPUTES FROM ITS BLOCKS.

  On one block of rows the body takes the sign of the block `x` (spelt as a selection between -1, 1 and the entry itself,
  which is the sign function at every extended real), multiplies it into the first weight matrix `w1` — held already
  binarised and transposed, `K × H` —, adds the one-row bias to every row, takes the sign again, multiplies into the
  second weight matrix `w2` (`H × C`) and adds the second one-row bias. Both products accumulate into zeros, so each is the
  plain sum over the contracted axis, and the roundings to sixteen bits on the way into the matrix unit are the identity
  on exact values. Read at row `p` and column `q` the stored block is therefore `blockLogitAt` of the five blocks.
-/
import proofs.«115025_j61933428415074_1_alg».proof.Proof.Gen.KernelIdeal.Skeleton
import proofs.«115025_j61933428415074_1_alg».proof.Proof.SignNet
import proofs.«115025_j61933428415074_1_alg».proof.Proof.LibMatOps
import Idealize.ShloMosaic.Lib.ValueLayout

noncomputable section

open scoped BigOperators

namespace Cert.KernelIdeal.BlockValue

open Cert.KernelIdeal Cert.KernelIdeal.Gen Idealize.ShloMosaic Idealize.ShloMosaic.ValueIdx Cert.SignNet

/-- The body's spelling of the sign of a whole vector — the entry itself where its absolute value is not above zero,
    else -1 or 1 by whether it is below zero — is the sign function at every entry. -/
theorem sign_vec {s : Shape} (x : FVec Ideal s .f32) :
    select (cmpf .ogt (absf x) (broadcast s (Scalar.ofBits .f32 0x00000000#32)))
        (select (cmpf .olt x (constant s .f32 0x00000000#32)) (constant s .f32 0xBF800000#32) (constant s .f32 0x3F800000#32)) x
      = fun i => Ideal.sign (x i) :=
  funext fun i => Ideal.jnp_sign_eq_sign_f32 (x i)

/-- Rounding an exact value to a narrower format changes nothing. -/
theorem truncf_id {s : Shape} {φ ψ : FTy} (a : FVec Ideal s φ) (h : ψ.bits < φ.bits) : (truncf ψ a h : FVec Ideal s ψ) = a := rfl

/-- The block the body stores, at row `p` and column `q`. -/
theorem payload_apply (x0 : Vec Ideal S2048x784 .f32) (w1 : Vec Ideal S784x128 .bf16) (b1 : Vec Ideal S1x128 .f32)
    (w2 : Vec Ideal S128x10 .bf16) (b2 : Vec Ideal S1x10 .f32) (p : Fin 2048) (q : Fin 10) :
    k0_pay1 (F := Ideal) x0 w1 b1 w2 b2 (ix2 p q) = blockLogitAt x0 w1 b1 w2 b2 p q := by
  unfold k0_pay1
  rw [sign_vec, sign_vec, shapeCast_self, shapeCast_self, shapeCast_self, shapeCast_self, truncf_id, truncf_id]
  unfold blockLogitAt
  rw [addf_apply, broadcastTo_1b_ab_apply]
  refine congrArg (· + b2 (ix2 (0 : Fin 1) q)) ?_
  -- the second product, into zeros: the sum over the hidden units
  refine (Cert.MatOps.matmul_plain_apply (φ₁ := .bf16) (φ₂ := .bf16) Facts₀.dot_S2048x128_S128x10_S2048x10_1_0_0_1_n_n_wf none _ w2 p q).trans ?_
  refine Finset.sum_congr rfl fun j _ => ?_
  refine congrArg (· * w2 (ix2 j q)) ?_
  refine congrArg Ideal.sign ?_
  rw [addf_apply, broadcastTo_1b_ab_apply]
  refine congrArg (· + b1 (ix2 (0 : Fin 1) j)) ?_
  -- the first product, into zeros: the sum over the input features
  exact Cert.MatOps.matmul_plain_apply (φ₁ := .bf16) (φ₂ := .bf16) Facts₀.dot_S2048x784_S784x128_S2048x128_1_0_0_1_n_n_wf none _ w1 p j

end Cert.KernelIdeal.BlockValue

end
-- ==== Proof.KernelValue.lean ====
/-
  THE DEVICE PROGRAM COMPUTES THE NETWORK.

  Before the grid runs, the host signs each weight matrix, rounds it to sixteen bits (the identity on exact values) and
  transposes it, and recasts each bias vector as a one-row matrix. The grid has 32 points; point `t` reads rows
  `2048·t … 2048·t + 2047` of the input, the whole of the four prepared arrays, and writes rows `2048·t … 2048·t + 2047` of
  the output. So row `p` of a point's input block is row `2048·t + p` of the input, what the point stores at `(p, q)`
  is the network's output at `(2048·t + p, q)`, and since the 32 blocks of 2048 rows cover the 65536 rows, the output array
  ends holding the network's output everywhere.
-/
import proofs.«115025_j61933428415074_1_alg».proof.Proof.Gen.KernelIdeal.Value
import proofs.«115025_j61933428415074_1_alg».proof.Proof.Block
import Idealize.ShloMosaic.Lib.ValueLayout
import Idealize.ShloMosaic.Lib.StableHlo.Run

noncomputable section

open scoped BigOperators

namespace Cert.KernelIdeal.WholeValue

open Cert.KernelIdeal Cert.KernelIdeal.Gen Idealize.ShloMosaic Idealize.ShloMosaic.TcCoe Idealize.SL.Sem Idealize.ShloMosaic.ValueIdx
open Idealize.ShloMosaic.StableHlo Cert.SignNet Cert.KernelIdeal.BlockValue
open Idealize.ShloMosaic.Pipeline (Dat)

variable (m : (ℓ : Loc nD τ sig) → Buf (Elt Ideal) ℓ) (ρ : Dev nD → PrngReg)

/-- The network's output, entry by entry, of the five argument arrays as launched. -/
def result (c : Dev nD) : S65536x10.Idx → EReal := fun i =>
  logitAt (m ((c : Thread nD τ).loc main_arg0) : S65536x784.Idx → EReal) (m ((c : Thread nD τ).loc main_arg1) : S128x784.Idx → EReal)
    (m ((c : Thread nD τ).loc main_arg2) : S128.Idx → EReal) (m ((c : Thread nD τ).loc main_arg3) : S10x128.Idx → EReal)
    (m ((c : Thread nD τ).loc main_arg4) : S10.Idx → EReal) (i 0) (i 1)

/-! ## The arrays the host prepares -/

/-- The first weight matrix as the grid finds it: signed, rounded, transposed. -/
theorem V_w1 (c : Dev nD) : (V m c main_v2 : S784x128.Idx → EReal)
    = transpose S784x128 [1, 0] (truncf .bf16 (Host.sign (F := Ideal) (m ((c : Thread nD τ).loc main_arg1))) bitsLt_bf16_f32) transposes_S128x784_S784x128_1_0 := by
  dsimp only [Gen.V, Gen.hostOps0]
  after_results

/-- The second weight matrix as the grid finds it: signed, rounded, transposed. -/
theorem V_w2 (c : Dev nD) : (V m c main_v5 : S128x10.Idx → EReal)
    = transpose S128x10 [1, 0] (truncf .bf16 (Host.sign (F := Ideal) (m ((c : Thread nD τ).loc main_arg3))) bitsLt_bf16_f32) transposes_S10x128_S128x10_1_0 := by
  dsimp only [Gen.V, Gen.hostOps0]
  after_results

/-- The first bias as the grid finds it: a one-row matrix. -/
theorem V_b1 (c : Dev nD) : (V m c main_v6 : S1x128.Idx → EReal)
    = shapeCast S1x128 (m ((c : Thread nD τ).loc main_arg2)) shapeCasts_S128_S1x128 := by
  dsimp only [Gen.V, Gen.hostOps0]
  after_results
  rfl

/-- The second bias as the grid finds it: a one-row matrix. -/
theorem V_b2 (c : Dev nD) : (V m c main_v7 : S1x10.Idx → EReal)
    = shapeCast S1x10 (m ((c : Thread nD τ).loc main_arg4)) shapeCasts_S10_S1x10 := by
  dsimp only [Gen.V, Gen.hostOps0]
  after_results
  rfl

/-! ## Where each point's blocks lie -/

theorem zero_offsets : (![0, 0] : Fin 2 → Nat) = fun _ => 0 := funext fun a => by fin_cases a <;> rfl

/-- Over the 32 grid points: the input block moves down the rows with the output block, neither moves along the columns,
    and the four prepared arrays are read whole at every point. -/
theorem block_indices : ∀ t : Fin cfg0.N,
    win0_0.index t (0 : Fin 2) = win0_5.index t (0 : Fin 2) ∧ win0_0.index t (1 : Fin 2) = 0
    ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every one of the 32 row blocks of the output is some point's. -/
theorem block_onto : ∀ b : Fin 32, ∃ t : Fin cfg0.N, win0_5.index t = ![b.val, 0] :=
  (by decide +kernel : ∀ b : Fin 32, ∃ t : Fin grid0.N, win0_5.index t = ![b.val, 0])

/-- Row `p` of point `t`'s input block is the input's row `2048 · (block index) + p`. -/
theorem blk_x (c : Dev nD) (t : Fin cfg0.N) (p : Fin 2048) (k : Fin 784) (i : S65536x784.Idx)
    (h0 : (i 0).val = win0_5.index t (0 : Fin 2) * 2048 + p.val) (h1 : (i 1).val = k.val) :
    (iblk m c 0 t : S2048x784.Idx → EReal) (ix2 p k) = m ((c : Thread nD τ).loc main_arg0) i := by
  obtain ⟨e0, e1, -⟩ := block_indices t
  show V m c main_arg0 (((cfg0.win 0).blk t).view.emb (ix2 p k)) = _
  rw [V_main_arg0]
  refine congrArg _ ?_
  funext a; apply Fin.ext
  match a with
  | ⟨0, _⟩ => show win0_0.index t (0 : Fin 2) * 2048 + 1 * p.val = (i 0).val; omega
  | ⟨1, _⟩ => show win0_0.index t (1 : Fin 2) * 784 + 1 * k.val = (i 1).val; omega

/-- The first weight block at `(k, j)` is the sign of the first-layer weight of hidden unit `j` on feature `k`. -/
theorem blk_w1 (c : Dev nD) (t : Fin cfg0.N) (k : Fin 784) (j : Fin 128) :
    (iblk m c 1 t : S784x128.Idx → EReal) (ix2 k j) = Ideal.sign (m ((c : Thread nD τ).loc main_arg1) (ix2 j k)) := by
  obtain ⟨-, -, -, e0, e1, -⟩ := block_indices t
  show V m c main_v2 (((cfg0.win 1).blk t).view.emb (ix2 k j)) = _
  have he : ((cfg0.win 1).blk t).view.emb (ix2 k j) = ix2 k j := by
    funext a; apply Fin.ext
    match a with
    | ⟨0, _⟩ => show win0_1.index t (0 : Fin 2) * 784 + 1 * k.val = k.val; omega
    | ⟨1, _⟩ => show win0_1.index t (1 : Fin 2) * 128 + 1 * j.val = j.val; omega
  rw [he, V_w1, transpose_ix2_apply]
  rfl

/-- The first bias block at `(0, j)` is the bias of hidden unit `j`. -/
theorem blk_b1 (c : Dev nD) (t : Fin cfg0.N) (j : Fin 128) :
    (iblk m c 2 t : S1x128.Idx → EReal) (ix2 (0 : Fin 1) j) = m ((c : Thread nD τ).loc main_arg2) (ix1 j) := by
  obtain ⟨-, -, -, -, -, e0, e1, -⟩ := block_indices t
  show V m c main_v6 (((cfg0.win 2).blk t).view.emb (ix2 (0 : Fin 1) j)) = _
  have he : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 128 + 1 * j.val = j.val; omega
  rw [he, V_b1, shapeCast_a_1a_apply]

/-- The second weight block at `(j, q)` is the sign of the second-layer weight of output `q` on hidden unit `j`. -/
theorem blk_w2 (c : Dev nD) (t : Fin cfg0.N) (j : Fin 128) (q : Fin 10) :
    (iblk m c 3 t : S128x10.Idx → EReal) (ix2 j q) = Ideal.sign (m ((c : Thread nD τ).loc main_arg3) (ix2 q j)) := by
  obtain ⟨-, -, -, -, -, -, -, e0, e1, -⟩ := block_indices t
  show V m c main_v5 (((cfg0.win 3).blk t).view.emb (ix2 j q)) = _
  have he : ((cfg0.win 3).blk t).view.emb (ix2 j q) = ix2 j q := by
    funext a; apply Fin.ext
    match a with
    | ⟨0, _⟩ => show win0_3.index t (0 : Fin 2) * 128 + 1 * j.val = j.val; omega
    | ⟨1, _⟩ => show win0_3.index t (1 : Fin 2) * 10 + 1 * q.val = q.val; omega
  rw [he, V_w2, transpose_ix2_apply]
  rfl

/-- The second bias block at `(0, q)` is the bias of output `q`. -/
theorem blk_b2 (c : Dev nD) (t : Fin cfg0.N) (q : Fin 10) :
    (iblk m c 4 t : S1x10.Idx → EReal) (ix2 (0 : Fin 1) q) = m ((c : Thread nD τ).loc main_arg4) (ix1 q) := by
  obtain ⟨-, -, -, -, -, -, -, -, -, e0, e1⟩ := block_indices t
  show V m c main_v7 (((cfg0.win 4).blk t).view.emb (ix2 (0 : Fin 1) q)) = _
  have he : ((cfg0.win 4).blk t).view.emb (ix2 (0 : Fin 1) q) = ix2 (0 : Fin 1) q := by
    funext a; apply Fin.ext
    match a with
    | ⟨0, _⟩ => show win0_4.index t (0 : Fin 2) * 1 + 1 * 0 = 0; omega
    | ⟨1, _⟩ => show win0_4.index t (1 : Fin 2) * 10 + 1 * q.val = q.val; omega
  rw [he, V_b2, shapeCast_a_1a_apply]

/-! ## What a point writes back, and the whole output -/

/-- What point `t` stores, entry by entry, is the network's output at the entry's place in the output array. -/
theorem stored_apply (c : Dev nD) (t : Fin cfg0.N) (y : S2048x10.Idx) :
    k0_pay1 (F := Ideal) (iblk m c 0 t) (iblk m c 1 t) (iblk m c 2 t) (iblk m c 3 t) (iblk m c 4 t) y
      = result m c (((cfg0.win 5).blk t).view.emb y) := by
  obtain ⟨p, q, rfl⟩ : ∃ (p : Fin 2048) (q : Fin 10), y = ix2 p q := ⟨y 0, y 1, eq_ix2 y⟩
  obtain ⟨-, -, e5, -⟩ := block_indices t
  refine (payload_apply (iblk m c 0 t) (iblk m c 1 t) (iblk m c 2 t) (iblk m c 3 t) (iblk m c 4 t) p q).trans ?_
  have hplace : ∃ (r : Fin 65536) (q' : Fin 10), ((cfg0.win 5).blk t).view.emb (ix2 p q) = ix2 r q'
      ∧ r.val = win0_5.index t (0 : Fin 2) * 2048 + p.val ∧ q' = q := by
    refine ⟨((cfg0.win 5).blk t).view.emb (ix2 p q) 0, ((cfg0.win 5).blk t).view.emb (ix2 p q) 1, eq_ix2 _, ?_, Fin.ext ?_⟩
    · show win0_5.index t (0 : Fin 2) * 2048 + 1 * p.val = _; omega
    · show win0_5.index t (1 : Fin 2) * 10 + 1 * q.val = q.val; omega
  obtain ⟨r, q', he, hr, rfl⟩ := hplace
  rw [he]
  show _ = logitAt _ _ _ _ _ r q'
  exact blockLogitAt_eq (m ((c : Thread nD τ).loc main_arg0) : S65536x784.Idx → EReal) (m ((c : Thread nD τ).loc main_arg1) : S128x784.Idx → EReal)
    (m ((c : Thread nD τ).loc main_arg2) : S128.Idx → EReal) (m ((c : Thread nD τ).loc main_arg3) : S10x128.Idx → EReal)
    (m ((c : Thread nD τ).loc main_arg4) : S10.Idx → EReal)
    (iblk m c 0 t : S2048x784.Idx → EReal) (iblk m c 1 t : S784x128.Idx → EReal) (iblk m c 2 t : S1x128.Idx → EReal)
    (iblk m c 3 t : S128x10.Idx → EReal) (iblk m c 4 t : S1x10.Idx → EReal) p r q'
    (fun k => blk_x m c t p k (ix2 r k) hr rfl) (fun k j => blk_w1 m c t k j) (fun j => blk_b1 m c t j)
    (fun j q => blk_w2 m c t j q) (fun q => blk_b2 m c t q)

/-- What point `t` writes back is its block of the network's output. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero_offsets]
  simp only [View.ld_unit_zero (S := S2048x784) zero_offsets, View.ld_unit_zero (S := S784x128) zero_offsets,
    View.ld_unit_zero (S := S1x128) zero_offsets, View.ld_unit_zero (S := S128x10) zero_offsets,
    View.ld_unit_zero (S := S1x10) zero_offsets]
  exact funext (stored_apply m c t)

/-- An index of the output is in point `t`'s block iff each coordinate is in the block's range on its axis. -/
theorem mem_blk (t : Fin cfg0.N) (i : S65536x10.Idx) :
    i ∈ ((cfg0.win 5).blk t).view.set ↔ ∀ a : Fin 2, win0_5.index t a * S2048x10.size a ≤ (i a).val ∧ (i a).val < win0_5.index t a * S2048x10.size a + S2048x10.size a := by
  show i ∈ ((View.whole main_v8).slice (win0_5.rect t)).set ↔ _
  rw [View.set_slice_whole, Rect.mem_set_unit]
  exact Iff.rfl

/-- Every output index lies in the block of the point whose block index is its row divided by 2048. -/
theorem covered (i : S65536x10.Idx) :
    ∃ t : Fin cfg0.N, (cfg0.win 5).flush t = true ∧ i ∈ ((cfg0.win 5).blk t).view.set := by
  have hi0 : (i 0).val < 65536 := (i 0).isLt
  have hi1 : (i 1).val < 10 := (i 1).isLt
  obtain ⟨t, ht⟩ := block_onto ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 10 ≤ (i 1).val ∧ (i 1).val < win0_5.index t (1 : Fin 2) * 10 + 10; omega

/-- After the grid, the output array holds the network's output. -/
theorem final (c : Dev nD) : (dats m 0 c).arrAt 5 cfg0.N = result m c :=
  (dats m 0 c).arrAt_eq_of_cover 5 (result m c) (fun t _ => flushed_eq m c t) covered

/-- Every weakly fair execution of the device program ends with the network's output in the result array and the
    arguments as launched. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.WholeValue

end
-- ==== Proof.lean ====
/-
  A binarised two-layer network: the input rows, both weight matrices and the hidden layer all pass through the sign
  function, and each layer adds a bias after its matrix product.

  The device program and the reference compute, at row `r` and output `q`, the same extended real
  `(∑ j, sign ((∑ k, sign (x r k) · sign (W1 j k)) + b1 j) · sign (W2 q j)) + b2 q`
  (Proof/SignNet.lean): the reference stage by stage over its whole arrays (Proof/Reference.lean), the device program
  block of rows by block of rows (Proof/Block.lean for one block, Proof/KernelValue.lean for the blocks laid back into the
  array). The two sides spell the sign differently — a selection between -1, 1 and the entry itself on the device, the
  sign function on the host — and hold the weight matrices in transposed layouts, but every sum runs over the same index
  set with the same terms, so no law of arithmetic is needed and the inputs' finiteness is never used.
  The word-level program differs from the exact one only in reading "negative" off the sign bit, in two places; each is
  the rule's own statement.
-/
import proofs.«115025_j61933428415074_1_alg».proof.Defs
import proofs.«115025_j61933428415074_1_alg».proof.Proof.Gen.Kernel
import proofs.«115025_j61933428415074_1_alg».proof.Proof.Gen.Kernel.Frame
import proofs.«115025_j61933428415074_1_alg».proof.Proof.Gen.KernelIdeal
import proofs.«115025_j61933428415074_1_alg».proof.Proof.Gen.KernelIdeal.Frame
import proofs.«115025_j61933428415074_1_alg».proof.Proof.Gen.ReferenceIdeal
import proofs.«115025_j61933428415074_1_alg».proof.Proof.Gen.KernelIdeal.Value
import proofs.«115025_j61933428415074_1_alg».proof.Proof.Gen.ReferenceIdeal.Run
import proofs.«115025_j61933428415074_1_alg».proof.Proof.Gen.ReferenceIdeal.Read
import proofs.«115025_j61933428415074_1_alg».proof.Proof.Gen.Pre_finite_inputs
import proofs.«115025_j61933428415074_1_alg».proof.Proof.Reference
import proofs.«115025_j61933428415074_1_alg».proof.Proof.KernelValue
import Idealize.ShloMosaic.Adequacy
import Idealize.ShloMosaic.Init

noncomputable section

namespace Cert.Proof

open Idealize.ShloMosaic Idealize.SL.Sem

/-- The word-level device program terminates without a fault and leaves its arguments as launched. -/
theorem frame_kernel : Cert.frame_Kernel := fun m ρ _ => Cert.Kernel.Gen.frame m ρ

/-- So does the exact device program. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading "below zero" off the sign bit, once on the input block and once on the hidden block. -/
theorem preserves : Cert.preserves_Kernel_KernelIdeal :=
  ⟨IdealRules.sign_bit.statement Cert.KernelIdeal.S2048x784 .f32, IdealRules.sign_bit.statement Cert.KernelIdeal.S2048x128 .f32⟩

/-- From memories that agree on the arguments both programs end with the network's output in their result arrays. -/
theorem algebraic : Cert.algebraic_KernelIdeal_ReferenceIdeal := by
  intro m ρ m' ρ' _ hagree
  refine ⟨fun c => Cert.KernelIdeal.WholeValue.result m c, Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.reference_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
